-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144x23 : Shape := ⟨3, ![8, 262144, 23]⟩
abbrev S8x10 : Shape := ⟨2, ![8, 10]⟩
abbrev S_ : Shape := ⟨0, ![]⟩

class Facts : Prop where
  bcast_S_S8x262144x23 : S_.BroadcastsInDim S8x262144x23 (![] : Fin 0 → Fin S8x262144x23.rank)
  reducesTo_S8x262144x23_S_d0_1_2 : S8x262144x23.ReducesTo [0, 1, 2] S_
  h_S_ : 0 < S_.numel
  bcast_S_S8x10 : S_.BroadcastsInDim S8x10 (![] : Fin 0 → Fin S8x10.rank)
  reducesTo_S8x10_S_d0_1 : S8x10.ReducesTo [0, 1] S_

variable [Facts]

def fn {F : FTy → Type} [FloatOps F] (main_arg0 : FVec F S8x262144x23 .f32) (main_arg1 : FVec F S8x10 .f32) : IVec S_ 1 :=
  let main_v0 : FVec F S8x262144x23 .f32 := Host.absf main_arg0
  let main_cst : FVec F S_ .f32 := constant S_ .f32 0x7F800000#32
  let main_v1 : FVec F S8x262144x23 .f32 := broadcastInDim S8x262144x23 ![] bcast_S_S8x262144x23 main_cst
  let main_v2 : IVec S8x262144x23 1 := cmpf .olt main_v0 main_v1
  let main_c : IVec S_ 1 := constantI S_ 1 1#1
  let main_v3 : IVec S_ 1 := (fun x v => Host.reduce IntOp.andi x v reducesTo_S8x262144x23_S_d0_1_2 h_S_) main_v2 main_c
  let main_v4 : FVec F S8x10 .f32 := Host.absf main_arg1
  let main_cst_0 : FVec F S_ .f32 := constant S_ .f32 0x7F800000#32
  let main_v5 : FVec F S8x10 .f32 := broadcastInDim S8x10 ![] bcast_S_S8x10 main_cst_0
  let main_v6 : IVec S8x10 1 := cmpf .olt main_v4 main_v5
  let main_c_1 : IVec S_ 1 := constantI S_ 1 1#1
  let main_v7 : IVec S_ 1 := (fun x v => Host.reduce IntOp.andi x v reducesTo_S8x10_S_d0_1 h_S_) main_v6 main_c_1
  let main_v8 : IVec S_ 1 := andi main_v3 main_v7
  main_v8
-- ==== Kernel.lean ====
abbrev S8x262144x23 : Shape := ⟨3, ![8, 262144, 23]⟩
abbrev S8x10 : Shape := ⟨2, ![8, 10]⟩
abbrev S23x10 : Shape := ⟨2, ![23, 10]⟩
abbrev S8x4096x23 : Shape := ⟨3, ![8, 4096, 23]⟩
abbrev S8x4096 : Shape := ⟨2, ![8, 4096]⟩
abbrev S8x4096x1 : Shape := ⟨3, ![8, 4096, 1]⟩
abbrev S32768x23 : Shape := ⟨2, ![32768, 23]⟩
abbrev S32768x10 : Shape := ⟨2, ![32768, 10]⟩
abbrev S8x4096x10 : Shape := ⟨3, ![8, 4096, 10]⟩
abbrev S_ : Shape := ⟨0, ![]⟩
abbrev S8 : Shape := ⟨1, ![8]⟩

abbrev nBuf : Space → Nat
  | .hbm => 17
  | .vmem => 4
  | .smem => 0
  | _ => 0

abbrev bufTy : (tb : Table) → Fin (tcTables nBuf tb) → BufTy
  | .hbm, ⟨0, _⟩ => ⟨S8x262144x23, .f32⟩
  | .hbm, ⟨1, _⟩ => ⟨S8x10, .f32⟩
  | .hbm, ⟨2, _⟩ => ⟨S23x10, .f32⟩
  | .hbm, ⟨3, _⟩ => ⟨S8x10, .f32⟩
  | .hbm, ⟨4, _⟩ => ⟨S8x10, .f32⟩
  | .hbm, ⟨5, _⟩ => ⟨S8x10, .f32⟩
  | .hbm, ⟨6, _⟩ => ⟨S8x10, .f32⟩
  | .hbm, ⟨7, _⟩ => ⟨S8x10, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S23x10, .f32⟩
  | .local _ .vmem, ⟨1, _⟩ => ⟨S8x4096x23, .f32⟩
  | .local _ .vmem, ⟨2, _⟩ => ⟨S8x4096x23, .f32⟩
  | .local _ .vmem, ⟨3, _⟩ => ⟨S8x10, .f32⟩
  | _, _ => ⟨S8x262144x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S23x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x4096x23 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S8x10_S8x10_0_0 : ∀ a, (![0, 0] : Fin 2 → Nat) a + S8x10.size a ≤ S8x10.size a
  h_S8x10 : 0 < S8x10.numel
  inb_S8x4096x23_S8x4096x23_0_0_0 : ∀ a, (![0, 0, 0] : Fin 3 → Nat) a + S8x4096x23.size a ≤ S8x4096x23.size a
  h_S8x4096x23 : 0 < S8x4096x23.numel
  reduces_S8x4096x23_S8x4096 : S8x4096x23.Reduces [2] S8x4096
  shapeCasts_S8x4096_S8x4096x1 : S8x4096.ShapeCasts S8x4096x1
  shapeCasts_S8x4096x23_S32768x23 : S8x4096x23.ShapeCasts S32768x23
  bitsLt_bf16_f32 : FTy.bits .bf16 < FTy.bits .f32
  inb_S23x10_S23x10_0_0 : ∀ a, (![0, 0] : Fin 2 → Nat) a + S23x10.size a ≤ S23x10.size a
  h_S23x10 : 0 < S23x10.numel
  shapeCasts_S32768x10_S8x4096x10 : S32768x10.ShapeCasts S8x4096x10
  broadcasts_S8x4096x1_S8x4096x10 : S8x4096x1.Broadcasts S8x4096x10
  reduces_S8x4096x10_S8x10 : S8x4096x10.Reduces [1] S8x10
  shapeCasts_S8x10_S8x10 : S8x10.ShapeCasts S8x10
  reducesTo_S8x10_S8_d1 : S8x10.ReducesTo [1] S8
  h_S_ : 0 < S_.numel
  bcast_S_S8 : S_.BroadcastsInDim S8 (![] : Fin 0 → Fin S8.rank)
  reducesTo_S8_S_d0 : S8.ReducesTo [0] S_
  dot_S32768x23_S23x10_S32768x10_1_0_0_1_n_n_wf : DotDims.WF S32768x23 S23x10 S32768x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S23x10.size a ≤ S23x10.size a
  hwx0_0 : ∀ i : grid0.Coords, EltTy.bits .f32 = 32 ∨ (Rect.block (s := S23x10) S23x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096x23.size a ≤ S8x262144x23.size a
  hwx0_1 : ∀ i : grid0.Coords, EltTy.bits .f32 = 32 ∨ (Rect.block (s := S8x262144x23) S8x4096x23.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x10.size a ≤ S8x10.size a
  hwx0_2 : ∀ i : grid0.Coords, EltTy.bits .f32 = 32 ∨ (Rect.block (s := S8x10) S8x10.size (cc0_transform_2 i) (hinb0_2 i)).WholeWords (EltTy.packing .f32)

variable [Facts₀]

def dot_S32768x23_S23x10_S32768x10_1_0_0_1_n_n : DotDims S32768x23 S23x10 S32768x10 where
  lhsContracting := [1]
  rhsContracting := [0]
  lhsNonContracting := [0]
  rhsNonContracting := [1]
  lhsBatch := []
  rhsBatch := []
  wf := dot_S32768x23_S23x10_S32768x10_1_0_0_1_n_n_wf

abbrev win0_0 : Pipeline.Window sig grid0 :=
  Pipeline.Window.ofSpec (Memref.whole main_cst) S23x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x4096x23.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x10.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x262144x23 : Shape := ⟨3, ![8, 262144, 23]⟩
abbrev S8x10 : Shape := ⟨2, ![8, 10]⟩
abbrev S23x10 : Shape := ⟨2, ![23, 10]⟩
abbrev S8x262144x10 : Shape := ⟨3, ![8, 262144, 10]⟩
abbrev S_ : Shape := ⟨0, ![]⟩
abbrev S8x262144 : Shape := ⟨2, ![8, 262144]⟩
abbrev S8x262144x1 : Shape := ⟨3, ![8, 262144, 1]⟩
abbrev S8 : Shape := ⟨1, ![8]⟩

abbrev nBuf : Space → Nat
  | .hbm => 27
  | .vmem => 0
  | .smem => 0
  | _ => 0

abbrev bufTy : (tb : Table) → Fin (tcTables nBuf tb) → BufTy
  | .hbm, ⟨0, _⟩ => ⟨S8x262144x23, .f32⟩
  | .hbm, ⟨1, _⟩ => ⟨S8x10, .f32⟩
  | .hbm, ⟨2, _⟩ => ⟨S23x10, .f32⟩
  | .hbm, ⟨3, _⟩ => ⟨S8x262144x10, .f32⟩
  | .hbm, ⟨4, _⟩ => ⟨S_, .f32⟩
  | .hbm, ⟨5, _⟩ => ⟨S8x262144, .f32⟩
  | .hbm, ⟨6, _⟩ => ⟨S8x262144x1, .f32⟩
  | .hbm, ⟨7, _⟩ => ⟨S8x262144x10, .f32⟩
  | .hbm, ⟨8, _⟩ => ⟨S8x262144x10, .f32⟩
  | .hbm, ⟨9, _⟩ => ⟨S_, .f32⟩
  | .hbm, ⟨10, _⟩ => ⟨S8x10, .f32⟩
  | .hbm, ⟨11, _⟩ => ⟨S_, .f32⟩
  | .hbm, ⟨12, _⟩ => ⟨S8x10, .f32⟩
  | .hbm, ⟨13, _⟩ => ⟨S8x10, .f32⟩
  | .hbm, ⟨14, _⟩ => ⟨S8x10, .f32⟩
  | .hbm, ⟨15, _⟩ => ⟨S8x10, .f32⟩
  | .hbm, ⟨16, _⟩ => ⟨S8x10, .f32⟩
  | .hbm, ⟨17, _⟩ => ⟨S8x10, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S8x262144x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  reducesTo_S8x262144x10_S8x262144_d2 : S8x262144x10.ReducesTo [2] S8x262144
  h_S_ : 0 < S_.numel
  bcast_S8x262144_S8x262144x1_0_1 : S8x262144.BroadcastsInDim S8x262144x1 (![0, 1] : Fin 2 → Fin S8x262144x1.rank)
  bcast_S8x262144x1_S8x262144x10_0_1_2 : S8x262144x1.BroadcastsInDim S8x262144x10 (![0, 1, 2] : Fin 3 → Fin S8x262144x10.rank)
  reducesTo_S8x262144x10_S8x10_d1 : S8x262144x10.ReducesTo [1] S8x10
  bcast_S_S8x10 : S_.BroadcastsInDim S8x10 (![] : Fin 0 → Fin S8x10.rank)
  reducesTo_S8x10_S8_d1 : S8x10.ReducesTo [1] S8
  bcast_S_S8 : S_.BroadcastsInDim S8 (![] : Fin 0 → Fin S8.rank)
  reducesTo_S8_S_d0 : S8.ReducesTo [0] S_
  dot_S8x262144x23_S23x10_S8x262144x10_2_0_01_1_n_n_wf : DotDims.WF S8x262144x23 S23x10 S8x262144x10 [2] [0] [0, 1] [1] [] []

variable [Facts₀]

def dot_S8x262144x23_S23x10_S8x262144x10_2_0_01_1_n_n : DotDims S8x262144x23 S23x10 S8x262144x10 where
  lhsContracting := [2]
  rhsContracting := [0]
  lhsNonContracting := [0, 1]
  rhsNonContracting := [1]
  lhsBatch := []
  rhsBatch := []
  wf := dot_S8x262144x23_S23x10_S8x262144x10_2_0_01_1_n_n_wf

class Facts : Prop extends Facts₀ where

variable [Facts]
-- ==== Proof.KernelPieces.lean ====
/-
  What each pass of the kernel body leaves in the output block, as a value.

  The body adds, to the 8 x 10 block it finds in the output buffer, the block's partial sum for the current tile of
  4096 rows.  At the first grid point it first overwrites the buffer with zeros; at the last grid point it then
  divides what it has stored by the number of rows.
-/
import proofs.«111948_j21131239096802_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GroupedMean.Ker

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle grid point: the running block xo plus the tile's partial sum. -/
theorem out_B (c : Dev nD) (i : grid0.Coords) (a1 : Memref sig .tc .vmem S23x10 .f32) (h1 : a1.IsWhole)
    (a2 : Memref sig .tc .vmem S8x4096x23 .f32) (h2 : a2.IsWhole) (a3 : Memref sig .tc .vmem S8x10 .f32) (h3 : a3.IsWhole)
    (hc0 : ¬cond0_0 i) (hc1 : ¬cond0_1 i) (x0 : Vec F S23x10 .f32) (x1 : Vec F S8x4096x23 .f32) (xo : Vec F S8x10 .f32) :
    out0_B_2 c i a1 h1 a2 h2 a3 h3 hc0 hc1 x0 x1 xo = k0_pay2 x1 x0 xo := by
  unfold out0_B_2
  rw [View.read_writes_eq_canon _ _ _ (cover0_B_2 c i a1 h1 a2 h2 a3 h3 hc0 hc1 x0 x1 xo)]
  unfold kernelRun0_B
  dsimp only
  rw [View.canon_unit_zero hz2]
  simp only [View.readAt_eq_ld, h1.read_unread, h2.read_unread, h3.read_unread, View.ld_unit_zero (S := S8x4096x23) hz3,
    View.ld_unit_zero (S := S23x10) hz2, View.ld_unit_zero (S := S8x10) hz2]

/-- The first grid point: the zero block plus the tile's partial sum. -/
theorem out_A (c : Dev nD) (i : grid0.Coords) (a1 : Memref sig .tc .vmem S23x10 .f32) (h1 : a1.IsWhole)
    (a2 : Memref sig .tc .vmem S8x4096x23 .f32) (h2 : a2.IsWhole) (a3 : Memref sig .tc .vmem S8x10 .f32) (h3 : a3.IsWhole)
    (hc0 : cond0_0 i) (hc1 : ¬cond0_1 i) (x0 : Vec F S23x10 .f32) (x1 : Vec F S8x4096x23 .f32) :
    out0_A_2 c i a1 h1 a2 h2 a3 h3 hc0 hc1 x0 x1 = k0_pay2 x1 x0 (k0_pay1 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S8x10) hz2, View.readCov_unit_zero (S := S8x10) _ hz2]
  simp only [View.readAt_eq_ld, h1.read_unread, h2.read_unread, h3.read_unread, View.ld_unit_zero (S := S8x4096x23) hz3,
    View.ld_unit_zero (S := S23x10) hz2, View.ld_unit_zero (S := S8x10) hz2]

/-- The last grid point: the running block plus the tile's partial sum, then divided by the number of rows. -/
theorem out_C (c : Dev nD) (i : grid0.Coords) (a1 : Memref sig .tc .vmem S23x10 .f32) (h1 : a1.IsWhole)
    (a2 : Memref sig .tc .vmem S8x4096x23 .f32) (h2 : a2.IsWhole) (a3 : Memref sig .tc .vmem S8x10 .f32) (h3 : a3.IsWhole)
    (hc0 : ¬cond0_0 i) (hc1 : cond0_1 i) (x0 : Vec F S23x10 .f32) (x1 : Vec F S8x4096x23 .f32) (xo : Vec F S8x10 .f32) :
    out0_C_2 c i a1 h1 a2 h2 a3 h3 hc0 hc1 x0 x1 xo = k0_pay3 (k0_pay2 x1 x0 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S8x10) hz2, View.readCov_unit_zero (S := S8x10) _ hz2]
  simp only [View.readAt_eq_ld, h1.read_unread, h2.read_unread, h3.read_unread, View.ld_unit_zero (S := S8x4096x23) hz3,
    View.ld_unit_zero (S := S23x10) hz2, View.ld_unit_zero (S := S8x10) hz2]

end Cert.GroupedMean.Ker

end
-- ==== Proof.KernelBlock.lean ====
/-
  The output array after the 64 grid points.

  The 8 x 10 output block never moves and is written back once, after the last grid point.  After grid point n it
  holds the body's sum applied n + 1 times, starting from the zero block; after the last point that sum divided by
  the number of rows.  The block is the whole output array, so the array ends holding exactly that.
-/
import proofs.«111948_j21131239096802_2_alg».proof.Proof.KernelPieces

noncomputable section

open Idealize.ShloMosaic Idealize.ShloMosaic.TcCoe Idealize.SL.Sem
open Idealize.ShloMosaic.Pipeline (Dat)

namespace Cert.GroupedMean.Ker

open Cert.KernelIdeal Cert.KernelIdeal.Gen

variable {F : FTy → Type} [FloatOps F]
variable (m : (ℓ : Loc nD τ sig) → Buf (Elt F) ℓ) (ρ : Dev nD → PrngReg)

/-- The running block after grid point n: the body's sum step applied to the tiles 0 .. n, from the zero block. -/
def running (c : Dev nD) : (n : ℕ) → n < cfg0.N → Vec F S8x10 .f32
  | 0, h => k0_pay2 (iblk m c 1 ⟨0, h⟩) (iblk m c 0 ⟨0, h⟩) (k0_pay1 (F := F))
  | n + 1, h => k0_pay2 (iblk m c 1 ⟨n + 1, h⟩) (iblk m c 0 ⟨n + 1, h⟩) (running c n (Nat.lt_of_succ_lt h))

/-- Before the last grid point the output buffer holds the running block. -/
theorem outsAt_running (c : Dev nD) : ∀ (n : ℕ) (h : n < cfg0.N), n < 63 → outsAt0 m c n h = running m c n h
  | 0, h, _ => (outsAt0_A m c ⟨0, h⟩ rfl (by show ¬(0 : ℕ) % 64 = 63; decide)).trans (out_A ..)
  | n + 1, h, h63 => by
    have hB0 : ¬(⟨n + 1, h⟩ : Fin cfg0.N).val % 64 = 0 := by dsimp only; omega
    have hB1 : ¬(⟨n + 1, h⟩ : Fin cfg0.N).val % 64 = 63 := by dsimp only; omega
    rw [outsAt0_B m c ⟨n + 1, h⟩ hB0 hB1, out_B]
    show k0_pay2 _ _ (outsAt0 m c n _) = k0_pay2 _ _ (running m c n _)
    rw [outsAt_running c n _ (by omega)]

theorem lastLt : 63 < cfg0.N := by rw [show cfg0.N = 64 from N_0]; decide

/-- The last grid point. -/
abbrev tLast : Fin cfg0.N := ⟨63, lastLt⟩

/-- What the output array ends holding: the running block after the last tile, divided by the number of rows. -/
def result (c : Dev nD) : Buf (Elt F) ((c : Thread nD τ).loc main_v0) := k0_pay3 (running m c 63 lastLt)

/-- After the last grid point the output buffer holds the result. -/
theorem outsAt_last (c : Dev nD) : outsAt0 m c 63 lastLt = result m c := by
  have hC0 : ¬(tLast : Fin cfg0.N).val % 64 = 0 := by show ¬(63 : ℕ) % 64 = 0; decide
  have hC1 : (tLast : Fin cfg0.N).val % 64 = 63 := by show (63 : ℕ) % 64 = 63; decide
  rw [show outsAt0 m c 63 lastLt = outsAt0 m c (tLast : Fin cfg0.N).val (tLast : Fin cfg0.N).isLt from rfl,
    outsAt0_C m c tLast hC0 hC1, out_C]
  show k0_pay3 (k0_pay2 _ _ (outsAt0 m c 62 _)) = k0_pay3 (k0_pay2 _ _ (running m c 62 _))
  rw [outsAt_running m c 62 _ (by decide)]

/-- The one write-back, at the last point, writes the result: the block at offset (0, 0) of the 8 x 10 array is the
    array. -/
theorem written_back (c : Dev nD) (t : Fin cfg0.N) (hf : (cfg0.win 2).flush t = true) :
    (dats m 0 c).flushed 2 t = ((cfg0.win 2).blk t).view.read (Elt F) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2]
  show (cfg0.win 2).cut (grid0.coords tLast) (outsAt0 m c 63 lastLt) = _
  rw [outsAt_last]
  have hoff : (fun a => win0_2.index tLast a * main_v0.ty.shape.size a) = fun _ => 0 :=
    funext fun a => by fin_cases a <;> decide
  exact (Memref.read_access_unit_zero (Elt F) main_v0 hoff (fun a => by rw [congrFun hoff a]; simp) (result m c)).symm

/-- The last point's block covers every index of the output array. -/
theorem covered (i : S8x10.Idx) : i ∈ ((cfg0.win 2).blk tLast).view.set := by
  show i ∈ ((View.whole main_v0).slice (win0_2.rect tLast)).set
  rw [View.set_slice_whole, Rect.mem_set_unit]
  intro a
  have h0 : (i 0 : Nat) < 8 := (i 0).isLt
  have h1 : (i 1 : Nat) < 10 := (i 1).isLt
  match a with
  | ⟨0, _⟩ =>
    show win0_2.index tLast 0 * win0_2.size 0 ≤ (i 0 : Nat)
      ∧ (i 0 : Nat) < win0_2.index tLast 0 * win0_2.size 0 + win0_2.xsize (grid0.coords tLast) 0
    rw [show win0_2.index tLast 0 * win0_2.size 0 = 0 from by decide +kernel,
      show win0_2.xsize (grid0.coords tLast) 0 = 8 from by decide +kernel]
    omega
  | ⟨1, _⟩ =>
    show win0_2.index tLast 1 * win0_2.size 1 ≤ (i 1 : Nat)
      ∧ (i 1 : Nat) < win0_2.index tLast 1 * win0_2.size 1 + win0_2.xsize (grid0.coords tLast) 1
    rw [show win0_2.index tLast 1 * win0_2.size 1 = 0 from by decide +kernel,
      show win0_2.xsize (grid0.coords tLast) 1 = 10 from by decide +kernel]
    omega

/-- So the output array ends holding the result. -/
theorem final_array (c : Dev nD) : (dats m 0 c).arrAt 2 cfg0.N = result m c :=
  (dats m 0 c).arrAt_eq_of_cover 2 (result m c) (written_back m c) fun i =>
    ⟨tLast, (flush0_2 tLast).mpr (by show (63 : ℕ) % 64 = 63; decide), covered i⟩

end Cert.GroupedMean.Ker

end
-- ==== Proof.GroupSpec.lean ====
/-
  The grouped mean and the loss built on it, as one function of the two argument arrays.

  x is an array of 8 batches, 262144 rows and 23 columns; M is a 23 x 10 table saying which of 10 groups a column
  belongs to.  A row's share of group g is the sum of the row's entries in the columns of g, divided by the sum of
  all its entries; the mean of the shares over the 262144 rows is the averaged distribution of a batch; the loss
  compares it with a target distribution t by the sum over g of t * (log t - log avg), divided by the number of
  groups, averaged over the batches.  Every operation is the one on the extended reals.
-/
import Idealize.ShloMosaic.PureOps.Ideal.Laws
import Idealize.ShloMosaic.Lib.ValueIdx

noncomputable section

open scoped BigOperators

namespace Cert.GroupedMean

open Idealize.ShloMosaic Idealize.ShloMosaic.ValueIdx

abbrev SX : Shape := ⟨3, ![8, 262144, 23]⟩
abbrev SM : Shape := ⟨2, ![23, 10]⟩
abbrev SO : Shape := ⟨2, ![8, 10]⟩
abbrev S0 : Shape := ⟨0, ![]⟩
abbrev SB : Shape := ⟨1, ![8]⟩

/-- Row n of batch b: its share of group g, the grouped sum over the row's total. -/
def share (x : SX.Idx → EReal) (M : SM.Idx → EReal) (b : Fin 8) (n : Fin 262144) (g : Fin 10) : EReal :=
  Ideal.div (∑ c : Fin 23, x (ix3 b n c) * M (ix2 c g)) (∑ c : Fin 23, x (ix3 b n c))

/-- The mean of the shares over the 262144 rows (the divisor is the float 262144.0). -/
def avg (x : SX.Idx → EReal) (M : SM.Idx → EReal) : SO.Idx → EReal := fun i =>
  Ideal.div (∑ n : Fin 262144, share x M (i 0) n (i 1)) (Ideal.ofBits .f32 0x48800000#32)

theorem avg_apply (x : SX.Idx → EReal) (M : SM.Idx → EReal) (b : Fin 8) (g : Fin 10) :
    avg x M (ix2 b g) = Ideal.div (∑ n : Fin 262144, share x M b n g) (Ideal.ofBits .f32 0x48800000#32) := rfl

/-- The loss from the averaged distribution a and the targets t: per batch the sum over the groups of
    t * (log t - log a), divided by 10.0; then the sum over the batches divided by 8.0. -/
def loss (h1 : SO.ReducesTo [1] SB) (h0 : 0 < S0.numel) (hb : S0.BroadcastsInDim SB (![] : Fin 0 → Fin SB.rank))
    (h2 : SB.ReducesTo [0] S0) (a t : FVec Ideal SO .f32) : FVec Ideal S0 .f32 :=
  Host.divf (F := Ideal)
    (Host.reduceAdd (F := Ideal)
      (Host.divf (F := Ideal)
        (Host.reduceAdd (F := Ideal) (mulf t (subf (Host.log (F := Ideal) t) (Host.log (F := Ideal) a)))
          (constant (F := Ideal) S0 .f32 0x00000000#32) h1 h0)
        (broadcastInDim SB ![] hb (constant (F := Ideal) S0 .f32 0x41200000#32)))
      (constant (F := Ideal) S0 .f32 0x00000000#32) h2 h0)
    (constant (F := Ideal) S0 .f32 0x41000000#32)

end Cert.GroupedMean

end
-- ==== Proof.KernelRun.lean ====
/-
  The kernel program's run, read at the extended reals: its result is the loss of the output array the 64 grid
  points leave and of the targets; the two argument arrays end as they began.
-/
import proofs.«111948_j21131239096802_2_alg».proof.Proof.KernelBlock
import proofs.«111948_j21131239096802_2_alg».proof.Proof.GroupSpec
import Idealize.ShloMosaic.Lib.StableHlo.Run

noncomputable section

open Idealize.ShloMosaic Idealize.ShloMosaic.TcCoe Idealize.SL.Sem
open Idealize.ShloMosaic.Pipeline (Dat)

namespace Cert.GroupedMean.Ker

open Cert.KernelIdeal Cert.KernelIdeal.Gen Cert.GroupedMean

variable (m : (ℓ : Loc nD τ sig) → Buf (Elt Ideal) ℓ) (ρ : Dev nD → PrngReg)

/-- The region does not touch the targets: after it they are as launched. -/
theorem targets_after (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by decide : ∀ w, Pipeline.arrRef spec0 w ≠ main_arg1)).trans
    (V_main_arg1 m c)

/-- After the region its output array holds the result of the 64 grid points. -/
theorem output_after (c : Dev nD) :
    Pipeline.withArrays (cfgs 0).spec c (V0 m c) (fun w => (dats m 0 c).arrAt w (cfgs 0).N) (Proc.devRef .tc main_v0)
      = result m c :=
  (Pipeline.withArrays_arr spec0 launch0.win.arr_inj c _ _ 2).trans (final_array m c)

/-- The thirteen host operations after the region compute the loss of the region's output array and the targets. -/
theorem tail_eq (c : Dev nD) :
    Pipeline.afterTail₀ cfgs (dats m) 0 (V0 m) [hostOps1] c main_v9
      = loss reducesTo_S8x10_S8_d1 h_S_ bcast_S_S8 reducesTo_S8_S_d0 (result m c) (m ((c : Thread nD τ).loc main_arg1)) := by
  unfold Pipeline.afterTail₀
  show StableHlo.after hostOps1 _ (Proc.devRef .tc main_v9) = _
  after_results
  rw [targets_after, output_after]
  rfl

/-- Every weakly fair execution of the kernel program ends with its result at the loss of the grid points' output
    array and the targets, and with both argument arrays as launched. -/
theorem run : θ_run (defs (F := Ideal)) (onTc (τ := τ) (main (F := Ideal))) ⟨m, fun _ => 0, ρ⟩ fun r => ∀ c : Dev nD,
      r.2.mem ((c.tc : Thread nD τ).loc main_v9)
          = loss reducesTo_S8x10_S8_d1 h_S_ bcast_S_S8 reducesTo_S8_S_d0 (result m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.GroupedMean.Ker

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.BodySum.lean ====
/-
  The body's arithmetic at one entry of the 8 x 10 block.

  For a tile v of 8 x 4096 rows of 23 entries, a table w of 23 x 10 and a running block a, the body stores
  a(b, g) + the sum over the tile's 4096 rows r of (sum over k of v(b, r, k) * w(k, g)) / (sum over k of v(b, r, k)):
  the row totals are a sum along the last axis kept as a unit axis and spread over the 10 groups; the grouped sums are
  the product of the tile, flattened to 32768 rows, with the table; the quotient is summed along the tile's rows.
-/
import proofs.«111948_j21131239096802_2_alg».proof.Proof.Gen.KernelIdeal.Skeleton
import proofs.«111948_j21131239096802_2_alg».proof.Proof.LibPlainDot
import proofs.«111948_j21131239096802_2_alg».proof.Proof.LibRowMajor
import Idealize.ShloMosaic.Lib.Pipeline.Value
import Idealize.ShloMosaic.Lib.ValueIdx
import Idealize.ShloMosaic.PureOps.Ideal.Laws

noncomputable section

open scoped BigOperators

namespace Cert.GroupedMean.Body

open Idealize.ShloMosaic Idealize.ShloMosaic.ValueIdx Cert.Lib.RowMajor Cert.Lib.PlainDot
open Cert.KernelIdeal Cert.KernelIdeal.Gen

/-- The sum along the last axis of a tile, at row (b, r): the sum of the row's 23 entries. -/
theorem rowTotal_apply (v : FVec Ideal S8x4096x23 .f32) (h : S8x4096x23.Reduces [2] S8x4096) (hφ : FKind.Formats .f32)
    (hacc : (0x00000000#32 : BitVec 32) = FKind.add.neutral .f32 hφ) (b : Fin 8) (r : Fin 4096) :
    multiReduction .add [2] S8x4096 v 0x00000000#32 h hφ hacc (ix2 b r) = ∑ k : Fin 23, v (ix3 b r k) :=
  (Ideal.multiReduction_add_single v _ h hφ hacc (ix2 b r)).trans
    (Finset.sum_congr rfl fun k _ => congrArg v (funext fun a => Fin.ext (by
      match a with
      | ⟨0, _⟩ => rfl
      | ⟨1, _⟩ => rfl
      | ⟨2, _⟩ => rfl)))

/-- The sum along the tile's rows, at (b, g): the sum over the 4096 rows. -/
theorem tileSum_apply (v : FVec Ideal S8x4096x10 .f32) (h : S8x4096x10.Reduces [1] S8x10) (hφ : FKind.Formats .f32)
    (hacc : (0x00000000#32 : BitVec 32) = FKind.add.neutral .f32 hφ) (b : Fin 8) (g : Fin 10) :
    multiReduction .add [1] S8x10 v 0x00000000#32 h hφ hacc (ix2 b g) = ∑ r : Fin 4096, v (ix3 b r g) :=
  (Ideal.multiReduction_add_single v _ h hφ hacc (ix2 b g)).trans
    (Finset.sum_congr rfl fun k _ => congrArg v (funext fun a => Fin.ext (by
      match a with
      | ⟨0, _⟩ => rfl
      | ⟨1, _⟩ => rfl
      | ⟨2, _⟩ => rfl)))

/-- Row (b, r) of the tile is row b * 4096 + r of the flattened tile. -/
theorem flatten_apply {α : Type} (v : S8x4096x23.Idx → α) (h : S8x4096x23.ShapeCasts S32768x23) (b : Fin 8) (r : Fin 4096)
    (k : Fin 23) (q : Fin 32768) (hq : q.val = b.val * 4096 + r.val) :
    shapeCast S32768x23 v h (ix2 q k) = v (ix3 b r k) :=
  shapeCast_apply v h (ix2 q k) (ix3 b r k) (by rw [rowMajor_ix3, rowMajor_ix2, hq])

/-- And back, for the product's 10 columns. -/
theorem unflatten_apply {α : Type} (v : S32768x10.Idx → α) (h : S32768x10.ShapeCasts S8x4096x10) (b : Fin 8) (r : Fin 4096)
    (g : Fin 10) (q : Fin 32768) (hq : q.val = b.val * 4096 + r.val) :
    shapeCast S8x4096x10 v h (ix3 b r g) = v (ix2 q g) :=
  shapeCast_apply v h (ix3 b r g) (ix2 q g) (by rw [rowMajor_ix3, rowMajor_ix2, hq])

/-- The row totals kept with a trailing unit axis. -/
theorem keepAxis_apply {α : Type} (v : S8x4096.Idx → α) (h : S8x4096.ShapeCasts S8x4096x1) (b : Fin 8) (r : Fin 4096) :
    shapeCast S8x4096x1 v h (ix3 b r (0 : Fin 1)) = v (ix2 b r) :=
  shapeCast_apply v h (ix3 b r (0 : Fin 1)) (ix2 b r) (by rw [rowMajor_ix3, rowMajor_ix2]; simp)

/-- The unit axis spread over the 10 groups. -/
theorem spread_apply {α : Type} (v : S8x4096x1.Idx → α) (h : S8x4096x1.Broadcasts S8x4096x10) (b : Fin 8) (r : Fin 4096)
    (g : Fin 10) : broadcastTo S8x4096x10 v h (ix3 b r g) = v (ix3 b r (0 : Fin 1)) :=
  broadcastTo_apply v h (ix3 b r g) (ix3 b r (0 : Fin 1)) (fun a => by
    match a with
    | ⟨0, _⟩ => rfl
    | ⟨1, _⟩ => rfl
    | ⟨2, _⟩ => rfl)

/-- The product of the flattened tile with the table, both first narrowed, into zero: the sum over the 23 columns. -/
theorem product_apply (l : FVec Ideal S32768x23 .f32) (w : FVec Ideal S23x10 .f32) (h₁ : FTy.bits .bf16 < FTy.bits .f32)
    (q : Fin 32768) (g : Fin 10) :
    matmul dot_S32768x23_S23x10_S32768x10_1_0_0_1_n_n none (truncf .bf16 l h₁) (truncf .bf16 w h₁)
        (constant S32768x10 .f32 0x00000000#32) (ix2 q g)
      = ∑ k : Fin 23, l (ix2 q k) * w (ix2 k g) :=
  (congrFun (matmul_truncf_zero_eq_dotGeneral dot_S32768x23_S23x10_S32768x10_1_0_0_1_n_n none l w h₁ h₁) (ix2 q g)).trans
    (dotGeneral_apply_ix2 dot_S32768x23_S23x10_S32768x10_1_0_0_1_n_n rfl rfl (fun _ _ => rfl) (fun _ _ => rfl)
      (fun _ _ => rfl) (fun _ _ => rfl) none l w q g)

/-- The block the first grid point starts from is zero everywhere. -/
theorem zeroBlock_apply (i : S8x10.Idx) : k0_pay1 (F := Ideal) i = 0 :=
  Ideal.ofBits_zero_f32

/-- The last step divides every entry by the float 262144.0. -/
theorem meanStep_apply (a : Vec Ideal S8x10 .f32) (i : S8x10.Idx) :
    k0_pay3 a i = Ideal.div (a i) (Ideal.ofBits .f32 0x48800000#32) := by
  unfold k0_pay3
  rw [shapeCast_self]
  rfl

/-- The body's sum step at entry (b, g): the running entry plus the tile's 4096 quotients. -/
theorem sumStep_apply (v : Vec Ideal S8x4096x23 .f32) (w : Vec Ideal S23x10 .f32) (a : Vec Ideal S8x10 .f32) (b : Fin 8)
    (g : Fin 10) :
    k0_pay2 v w a (ix2 b g)
      = a (ix2 b g) + ∑ r : Fin 4096, Ideal.div (∑ k : Fin 23, v (ix3 b r k) * w (ix2 k g)) (∑ k : Fin 23, v (ix3 b r k)) := by
  unfold k0_pay2
  rw [shapeCast_self, addf_apply]
  refine congrArg (a (ix2 b g) + ·) ?_
  refine (tileSum_apply _ _ _ _ b g).trans (Finset.sum_congr rfl fun r _ => ?_)
  rw [divf_apply]
  have hq : b.val * 4096 + r.val < 32768 := by omega
  refine congrArg₂ Ideal.div ?_ ?_
  · refine (unflatten_apply _ _ b r g ⟨b.val * 4096 + r.val, hq⟩ rfl).trans ?_
    refine (product_apply _ _ _ _ g).trans (Finset.sum_congr rfl fun k _ => ?_)
    exact congrArg (· * w (ix2 k g)) (flatten_apply v _ b r k _ rfl)
  · exact (spread_apply _ _ b r g).trans ((keepAxis_apply _ _ b r).trans (rowTotal_apply v _ _ _ b r))

end Cert.GroupedMean.Body

end
-- ==== Proof.KernelValue.lean ====
/-
  The output array of the 64 grid points is the mean of the row shares.

  Grid point t reads rows 4096 t .. 4096 t + 4095 of every batch and the whole 23 x 10 table, so its pass adds
  those rows' shares to the running block.  After grid point n the block holds the shares of the first (n + 1) * 4096
  rows, summed; after the last point all 262144 of them, divided by 262144.0.
-/
import proofs.«111948_j21131239096802_2_alg».proof.Proof.KernelBlock
import proofs.«111948_j21131239096802_2_alg».proof.Proof.BodySum
import proofs.«111948_j21131239096802_2_alg».proof.Proof.GroupSpec
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.GroupedMean.Ker

open Cert.KernelIdeal Cert.KernelIdeal.Gen Cert.GroupedMean Cert.GroupedMean.Body

variable (m : (ℓ : Loc nD τ sig) → Buf (Elt Ideal) ℓ)

/-- The table as the host operation before the region writes it. -/
def table : SM.Idx → EReal := fun i => Ideal.ofBits .f32 (Cert.KernelIdeal.lit0 (Cert.KernelIdeal.S23x10.rowMajor i))

/-- Where each window's block sits at grid point t: the table's and the output's never move, the rows' block is
    the t-th along the row axis. -/
theorem block_index : ∀ t : Fin cfg0.N, win0_0.index t (0 : Fin 2) = 0 ∧ win0_0.index t (1 : Fin 2) = 0
    ∧ win0_1.index t (0 : Fin 3) = 0 ∧ win0_1.index t (1 : Fin 3) = t.val ∧ win0_1.index t (2 : Fin 3) = 0 :=
  (by decide +kernel : ∀ t : Fin grid0.N, _)

/-- The rows' block at grid point t: row r of the block is row t * 4096 + r of the array. -/
theorem rows_block (c : Dev nD) (t : Fin cfg0.N) (b : Fin 8) (r : Fin 4096) (k : Fin 23) (n : Fin 262144)
    (hn : n.val = t.val * 4096 + r.val) :
    iblk m c 1 t (ix3 b r k) = m ((c : Thread nD τ).loc main_arg0) (ix3 b n k) := by
  obtain ⟨-, -, e0, e1, e2⟩ := block_index t
  unfold iblk
  rw [View.read_apply]
  show V m c main_arg0 (((cfg0.win 1).blk t).view.emb (ix3 b r k)) = _
  rw [V_main_arg0]
  refine congrArg _ (funext fun a => Fin.ext ?_)
  match a with
  | ⟨0, _⟩ => show win0_1.index t (0 : Fin 3) * 8 + 1 * b.val = b.val; rw [e0]; omega
  | ⟨1, _⟩ => show win0_1.index t (1 : Fin 3) * 4096 + 1 * r.val = n.val; rw [e1, hn]; omega
  | ⟨2, _⟩ => show win0_1.index t (2 : Fin 3) * 23 + 1 * k.val = k.val; rw [e2]; omega

/-- The region finds the table as the host operation before it wrote it. -/
theorem table_entry (c : Dev nD) : (V m c main_cst : S23x10.Idx → EReal) = table := by
  show StableHlo.after hostOps0 (fun b => m (c, b)) (Proc.devRef .tc main_cst) = _
  after_results
  rfl

/-- The table's block at every grid point is the whole table. -/
theorem table_block (c : Dev nD) (t : Fin cfg0.N) (k : Fin 23) (g : Fin 10) :
    iblk m c 0 t (ix2 k g) = table (ix2 k g) := by
  obtain ⟨e0, e1, -, -, -⟩ := block_index t
  unfold iblk
  rw [View.read_apply]
  show V m c main_cst (((cfg0.win 0).blk t).view.emb (ix2 k g)) = _
  rw [table_entry]
  refine congrArg table (funext fun a => Fin.ext ?_)
  match a with
  | ⟨0, _⟩ => show win0_0.index t (0 : Fin 2) * 23 + 1 * k.val = k.val; rw [e0]; omega
  | ⟨1, _⟩ => show win0_0.index t (1 : Fin 2) * 10 + 1 * g.val = g.val; rw [e1]; omega

/-- Row k's share by position (zero past the last row). -/
def shareAt (x : SX.Idx → EReal) (M : SM.Idx → EReal) (b : Fin 8) (g : Fin 10) (k : ℕ) : EReal :=
  if h : k < 262144 then share x M b ⟨k, h⟩ g else 0

/-- The sum over all rows of the shares, by position. -/
theorem sum_shareAt (x : SX.Idx → EReal) (M : SM.Idx → EReal) (b : Fin 8) (g : Fin 10) :
    ∑ k ∈ Finset.range 262144, shareAt x M b g k = ∑ n : Fin 262144, share x M b n g := by
  rw [Finset.sum_range]
  exact Finset.sum_congr rfl fun n _ => dif_pos n.isLt

/-- The two input blocks at grid point t, as plain arrays. -/
abbrev rowsAt (c : Dev nD) (t : Fin cfg0.N) : Vec Ideal S8x4096x23 .f32 := iblk m c 1 t
abbrev tableAt (c : Dev nD) (t : Fin cfg0.N) : Vec Ideal S23x10 .f32 := iblk m c 0 t

/-- What grid point t adds at (b, g): the shares of the rows t * 4096 + r, r < 4096. -/
theorem tile_shares (c : Dev nD) (t : Fin cfg0.N) (b : Fin 8) (g : Fin 10) :
    ∑ r : Fin 4096, Ideal.div (∑ k : Fin 23, rowsAt m c t (ix3 b r k) * tableAt m c t (ix2 k g))
        (∑ k : Fin 23, rowsAt m c t (ix3 b r k))
      = ∑ r ∈ Finset.range 4096, shareAt (m ((c : Thread nD τ).loc main_arg0)) table b g (t.val * 4096 + r) := by
  rw [Finset.sum_range]
  refine Finset.sum_congr rfl fun r _ => ?_
  have hN : t.val < 64 := lt_of_lt_of_eq t.isLt (show cfg0.N = 64 from N_0)
  have hr : r.val < 4096 := r.isLt
  have hlt : t.val * 4096 + r.val < 262144 := by omega
  unfold shareAt
  rw [dif_pos hlt]
  unfold share
  refine congrArg₂ Ideal.div (Finset.sum_congr rfl fun k _ => ?_) (Finset.sum_congr rfl fun k _ => ?_)
  · exact congrArg₂ (· * ·) (rows_block m c t b r k ⟨_, hlt⟩ rfl) (table_block m c t k g)
  · exact rows_block m c t b r k ⟨_, hlt⟩ rfl

/-- After grid point n the running block holds, at (b, g), the summed shares of the first (n + 1) * 4096 rows. -/
theorem running_eq (c : Dev nD) (b : Fin 8) (g : Fin 10) : ∀ (n : ℕ) (h : n < cfg0.N),
    running m c n h (ix2 b g)
      = ∑ k ∈ Finset.range ((n + 1) * 4096), shareAt (m ((c : Thread nD τ).loc main_arg0)) table b g k
  | 0, h => by
    show k0_pay2 (iblk m c 1 ⟨0, h⟩) (iblk m c 0 ⟨0, h⟩) (k0_pay1 (F := Ideal)) (ix2 b g) = _
    refine (sumStep_apply (rowsAt m c ⟨0, h⟩) (tableAt m c ⟨0, h⟩) (k0_pay1 (F := Ideal)) b g).trans ?_
    rw [zeroBlock_apply, zero_add, tile_shares m c ⟨0, h⟩ b g]
    refine Finset.sum_congr (by norm_num) fun r _ => ?_
    show shareAt _ _ b g (0 * 4096 + r) = _
    rw [Nat.zero_mul, Nat.zero_add]
  | n + 1, h => by
    show k0_pay2 (iblk m c 1 ⟨n + 1, h⟩) (iblk m c 0 ⟨n + 1, h⟩) (running m c n (Nat.lt_of_succ_lt h)) (ix2 b g) = _
    refine (sumStep_apply (rowsAt m c ⟨n + 1, h⟩) (tableAt m c ⟨n + 1, h⟩) (running m c n (Nat.lt_of_succ_lt h)) b g).trans ?_
    rw [running_eq c b g n (Nat.lt_of_succ_lt h), tile_shares m c ⟨n + 1, h⟩ b g,
      show (n + 1 + 1) * 4096 = (n + 1) * 4096 + 4096 from by ring, Finset.sum_range_add]

/-- THE KERNEL'S VALUE: the output array of the 64 grid points is the mean, over the 262144 rows, of the shares. -/
theorem result_eq (c : Dev nD) : result m c = avg (m ((c : Thread nD τ).loc main_arg0)) table := by
  funext i
  obtain ⟨b, g, rfl⟩ : ∃ (b : Fin 8) (g : Fin 10), i = ix2 b g := ⟨i 0, i 1, eq_ix2 i⟩
  rw [avg_apply]
  show k0_pay3 (running m c 63 lastLt) (ix2 b g) = _
  rw [meanStep_apply, running_eq m c b g 63 lastLt, show (63 + 1) * 4096 = 262144 from by norm_num, sum_shareAt]

end Cert.GroupedMean.Ker

end
-- ==== Proof.RefValue.lean ====
/-
  The reference program's run, read as the loss of the grouped mean.

  The reference multiplies x : [8, 262144, 23] with a constant 23 x 10 table M of zeros and ones (the entry at
  (c, g) is 1 exactly when column c lies in group g), sums the product over the 10 groups to get each row's total,
  divides the product by the total, averages over the 262144 rows, and applies the loss to the average and the
  targets.  Every column lies in exactly one group, so the sum over the groups of the sums over the columns of
  x(b, n, c) · M(c, g) is the plain sum over the columns of x(b, n, c): on every extended real, since x · 1 = x and
  x · 0 = 0 there.  Hence the reference's average is the specification's grouped mean at the table M, and its
  result is the specification's loss of it.
-/
import proofs.«111948_j21131239096802_2_alg».proof.Proof.Gen.ReferenceIdeal
import proofs.«111948_j21131239096802_2_alg».proof.Proof.GroupSpec
import proofs.«111948_j21131239096802_2_alg».proof.Proof.LibRowMajor
import Idealize.ShloMosaic.Lib.IdealHost
import Idealize.ShloMosaic.Lib.Pipeline.Value
import Idealize.ShloMosaic.Lib.StableHlo.Run

noncomputable section

open scoped BigOperators

namespace Cert.GroupedMean.Ref

open Idealize.ShloMosaic Idealize.ShloMosaic.TcCoe Idealize.SL.Sem Cert.ReferenceIdeal Cert.ReferenceIdeal.Gen Cert.GroupedMean
open Idealize.ShloMosaic.ValueIdx

/-- The constant table as the reference's first operation writes it. -/
def table : SM.Idx → EReal := fun i => Ideal.ofBits .f32 (Cert.ReferenceIdeal.lit0 (Cert.ReferenceIdeal.S23x10.rowMajor i))

/-- The group of each of the 23 columns. -/
def grp : Fin 23 → Fin 10 := ![0, 0, 1, 1, 2, 2, 2, 3, 3, 4, 4, 4, 5, 5, 6, 6, 6, 7, 7, 8, 8, 9, 9]

theorem lit0_grp : ∀ (c : Fin 23) (g : Fin 10),
    lit0 ⟨c.val * 10 + g.val, by omega⟩ = if g = grp c then 0x3F800000#32 else 0x00000000#32 := by
  decide +kernel

theorem table_apply (c : Fin 23) (g : Fin 10) : table (ix2 c g) = if g = grp c then 1 else 0 := by
  unfold table
  have hlt : c.val * 10 + g.val < 230 := by omega
  have h : S23x10.rowMajor (ix2 c g) = (⟨c.val * 10 + g.val, hlt⟩ : Fin 230) := Fin.ext (Cert.Lib.RowMajor.rowMajor_ix2 c g)
  rw [h, lit0_grp]
  split
  · exact IdealRules.sign_bit.ideal_onePat .f32
  · exact Ideal.ofBits_zero_f32

/-- The dimension numbers of the reference's product: x's last axis against the table's first. -/
abbrev dd : DotDims S8x262144x23 S23x10 S8x262144x10 := dot_S8x262144x23_S23x10_S8x262144x10_2_0_01_1_n_n

theorem dd_rank : dd.contr.rank = 1 := rfl
theorem dd_size : dd.contr.size ⟨0, by rw [dd_rank]; omega⟩ = 23 := rfl

/-- The product at (b, n, g): the sum over the 23 columns of x(b, n, k) · M(k, g). -/
theorem dot_apply (x : FVec Ideal SX .f32) (M : FVec Ideal SM .f32) (b : Fin 8) (n : Fin 262144) (g : Fin 10) :
    Host.dotGeneral (F := Ideal) dd none x M (ix3 b n g) = ∑ k : Fin 23, x (ix3 b n k) * M (ix2 k g) := by
  refine (Ideal.dotGeneral_apply dd none .single x M (ix3 b n g)).trans ?_
  rw [← Equiv.sum_comp (contrEquiv1 dd 23 dd_rank dd_size).symm]
  refine Finset.sum_congr rfl fun k _ => ?_
  have hk := contrEquiv1_symm_val dd 23 dd_rank dd_size k
  have el : dd.lhsIdx (ix3 b n g) ((contrEquiv1 dd 23 dd_rank dd_size).symm k) = ix3 b n k := funext fun a => Fin.ext (by
    match a with
    | ⟨0, _⟩ => rfl
    | ⟨1, _⟩ => rfl
    | ⟨2, _⟩ => exact hk)
  have er : dd.rhsIdx (ix3 b n g) ((contrEquiv1 dd 23 dd_rank dd_size).symm k) = ix2 k g := funext fun a => Fin.ext (by
    match a with
    | ⟨0, _⟩ => exact hk
    | ⟨1, _⟩ => rfl)
  rw [el, er]

/-- The sum over the last axis (the 10 groups), from the zero word, at (b, n). -/
theorem reduce2_apply (D : FVec Ideal S8x262144x10 .f32) (b : Fin 8) (n : Fin 262144) :
    Host.reduceAdd (F := Ideal) D (constant (F := Ideal) S_ .f32 0x00000000#32) reducesTo_S8x262144x10_S8x262144_d2 h_S_ (ix2 b n)
      = ∑ g : Fin 10, D (ix3 b n g) := by
  have h : S8x262144x10.Reduces [2] S8x262144 := by decide
  refine (Ideal.hostReduceAdd_single reducesTo_S8x262144x10_S8x262144_d2 h D _ (ix2 b n)).trans ?_
  rw [show (constant (F := Ideal) S_ .f32 0x00000000#32 (Shape.Idx.first h_S_)) = 0 from Ideal.ofBits_zero_f32, zero_add]
  refine Finset.sum_congr rfl fun g _ => congrArg D ?_
  funext a; match a with | ⟨0, _⟩ => rfl | ⟨1, _⟩ => rfl | ⟨2, _⟩ => rfl

/-- The sum over the middle axis (the 262144 rows), from the zero word, at (b, g). -/
theorem reduce1_apply (Q : FVec Ideal S8x262144x10 .f32) (b : Fin 8) (g : Fin 10) :
    Host.reduceAdd (F := Ideal) Q (constant (F := Ideal) S_ .f32 0x00000000#32) reducesTo_S8x262144x10_S8x10_d1 h_S_ (ix2 b g)
      = ∑ n : Fin 262144, Q (ix3 b n g) := by
  have h : S8x262144x10.Reduces [1] S8x10 := by decide
  refine (Ideal.hostReduceAdd_single reducesTo_S8x262144x10_S8x10_d1 h Q _ (ix2 b g)).trans ?_
  rw [show (constant (F := Ideal) S_ .f32 0x00000000#32 (Shape.Idx.first h_S_)) = 0 from Ideal.ofBits_zero_f32, zero_add]
  refine Finset.sum_congr rfl fun n _ => congrArg Q ?_
  funext a; match a with | ⟨0, _⟩ => rfl | ⟨1, _⟩ => rfl | ⟨2, _⟩ => rfl

/-- The row totals broadcast back over the groups: at (b, n, g) the total of row (b, n). -/
theorem bcast_apply (R : FVec Ideal S8x262144 .f32) (b : Fin 8) (n : Fin 262144) (g : Fin 10) :
    broadcastInDim S8x262144x10 ![0, 1, 2] bcast_S8x262144x1_S8x262144x10_0_1_2
        (broadcastInDim S8x262144x1 ![0, 1] bcast_S8x262144_S8x262144x1_0_1 R) (ix3 b n g) = R (ix2 b n) := by
  refine (broadcastInDim_apply _ _ _ (ix3 b n g) (ix3 b n (0 : Fin 1)) ?_).trans
    (broadcastInDim_apply _ _ R (ix3 b n (0 : Fin 1)) (ix2 b n) ?_)
  · intro a; match a with | ⟨0, _⟩ => rfl | ⟨1, _⟩ => rfl | ⟨2, _⟩ => rfl
  · intro a; match a with | ⟨0, _⟩ => rfl | ⟨1, _⟩ => rfl

/-- The reference's first twelve operations composed: the averaged distribution as it computes it. -/
def refAvg (x : FVec Ideal SX .f32) : FVec Ideal SO .f32 :=
  Host.divf (F := Ideal)
    (Host.reduceAdd (F := Ideal)
      (Host.divf (F := Ideal)
        (Host.dotGeneral (F := Ideal) (φ₂ := .f32) dot_S8x262144x23_S23x10_S8x262144x10_2_0_01_1_n_n none x table)
        (broadcastInDim S8x262144x10 ![0, 1, 2] bcast_S8x262144x1_S8x262144x10_0_1_2
          (broadcastInDim S8x262144x1 ![0, 1] bcast_S8x262144_S8x262144x1_0_1
            (Host.reduceAdd (F := Ideal)
              (Host.dotGeneral (F := Ideal) (φ₂ := .f32) dot_S8x262144x23_S23x10_S8x262144x10_2_0_01_1_n_n none x table)
              (constant (F := Ideal) S_ .f32 0x00000000#32) reducesTo_S8x262144x10_S8x262144_d2 h_S_))))
      (constant (F := Ideal) S_ .f32 0x00000000#32) reducesTo_S8x262144x10_S8x10_d1 h_S_)
    (broadcastInDim S8x10 ![] bcast_S_S8x10 (constant (F := Ideal) S_ .f32 0x48800000#32))

/-- Every column lies in exactly one group: a row's products with the table, summed over the groups and the
    columns, are the row's plain total. On every extended real: x · 1 = x and x · 0 = 0. -/
theorem total_eq (x : FVec Ideal SX .f32) (b : Fin 8) (n : Fin 262144) :
    ∑ g : Fin 10, ∑ k : Fin 23, x (ix3 b n k) * table (ix2 k g) = ∑ c : Fin 23, x (ix3 b n c) := by
  rw [Finset.sum_comm]
  refine Finset.sum_congr rfl fun k _ => ?_
  simp only [table_apply, mul_ite, mul_one, mul_zero, Finset.sum_ite_eq', Finset.mem_univ, if_true]

/-- The host's quotient at an index is the quotient of the entries. -/
theorem hdiv_apply {s : Shape} (a c : FVec Ideal s .f32) (i : s.Idx) :
    Host.divf (F := Ideal) a c i = Ideal.div (a i) (c i) := rfl

theorem refAvg_eq (x : FVec Ideal SX .f32) : refAvg x = avg x table := by
  funext i
  obtain ⟨b, g, rfl⟩ : ∃ (b : Fin 8) (g : Fin 10), i = ix2 b g := ⟨i 0, i 1, eq_ix2 i⟩
  rw [avg_apply]
  unfold refAvg
  refine (hdiv_apply _ _ _).trans (congrArg₂ Ideal.div ?_ rfl)
  refine (reduce1_apply _ b g).trans (Finset.sum_congr rfl fun n _ => ?_)
  unfold share
  refine (hdiv_apply _ _ _).trans (congrArg₂ Ideal.div (dot_apply x table b n g) ?_)
  refine (bcast_apply _ b n g).trans ((reduce2_apply _ b n).trans ?_)
  exact (Finset.sum_congr rfl fun g' _ => dot_apply x table b n g').trans (total_eq x b n)

/-! ## The run -/

section Run

open Idealize.ShloMosaic.StableHlo

variable {F : FTy → Type} [FloatOps F]

/-- @main's 25 operations, in order. -/
abbrev ops : List (HloOp τ sig (Elt F)) :=
  [ nullary main_cst (fun i => FloatOps.ofBits .f32 (lit0 (S23x10.rowMajor i))),
    binary main_arg0 main_cst main_v0 ((fun l r => Host.dotGeneral dot_S8x262144x23_S23x10_S8x262144x10_2_0_01_1_n_n none l r) : (⟨S8x262144x23, .f32⟩ : BufTy).Contents (Elt F) → (⟨S23x10, .f32⟩ : BufTy).Contents (Elt F) → (⟨S8x262144x10, .f32⟩ : BufTy).Contents (Elt F)),
    nullary main_cst_0 (constant S_ .f32 0x00000000#32),
    binary main_v0 main_cst_0 main_v1 ((fun x v => Host.reduceAdd x v reducesTo_S8x262144x10_S8x262144_d2 h_S_) : (⟨S8x262144x10, .f32⟩ : BufTy).Contents (Elt F) → (⟨S_, .f32⟩ : BufTy).Contents (Elt F) → (⟨S8x262144, .f32⟩ : BufTy).Contents (Elt F)),
    unary main_v1 main_v2 (broadcastInDim S8x262144x1 ![0, 1] bcast_S8x262144_S8x262144x1_0_1 : (⟨S8x262144, .f32⟩ : BufTy).Contents (Elt F) → (⟨S8x262144x1, .f32⟩ : BufTy).Contents (Elt F)),
    unary main_v2 main_v3 (broadcastInDim S8x262144x10 ![0, 1, 2] bcast_S8x262144x1_S8x262144x10_0_1_2 : (⟨S8x262144x1, .f32⟩ : BufTy).Contents (Elt F) → (⟨S8x262144x10, .f32⟩ : BufTy).Contents (Elt F)),
    binary main_v0 main_v3 main_v4 (Host.divf : (⟨S8x262144x10, .f32⟩ : BufTy).Contents (Elt F) → (⟨S8x262144x10, .f32⟩ : BufTy).Contents (Elt F) → (⟨S8x262144x10, .f32⟩ : BufTy).Contents (Elt F)),
    nullary main_cst_1 (constant S_ .f32 0x00000000#32),
    binary main_v4 main_cst_1 main_v5 ((fun x v => Host.reduceAdd x v reducesTo_S8x262144x10_S8x10_d1 h_S_) : (⟨S8x262144x10, .f32⟩ : BufTy).Contents (Elt F) → (⟨S_, .f32⟩ : BufTy).Contents (Elt F) → (⟨S8x10, .f32⟩ : BufTy).Contents (Elt F)),
    nullary main_cst_2 (constant S_ .f32 0x48800000#32),
    unary main_cst_2 main_v6 (broadcastInDim S8x10 ![] bcast_S_S8x10 : (⟨S_, .f32⟩ : BufTy).Contents (Elt F) → (⟨S8x10, .f32⟩ : BufTy).Contents (Elt F)),
    binary main_v5 main_v6 main_v7 (Host.divf : (⟨S8x10, .f32⟩ : BufTy).Contents (Elt F) → (⟨S8x10, .f32⟩ : BufTy).Contents (Elt F) → (⟨S8x10, .f32⟩ : BufTy).Contents (Elt F)),
    unary main_v7 main_v8 (Host.log : (⟨S8x10, .f32⟩ : BufTy).Contents (Elt F) → (⟨S8x10, .f32⟩ : BufTy).Contents (Elt F)),
    unary main_arg1 main_v9 (Host.log : (⟨S8x10, .f32⟩ : BufTy).Contents (Elt F) → (⟨S8x10, .f32⟩ : BufTy).Contents (Elt F)),
    binary main_v9 main_v8 main_v10 (subf : (⟨S8x10, .f32⟩ : BufTy).Contents (Elt F) → (⟨S8x10, .f32⟩ : BufTy).Contents (Elt F) → (⟨S8x10, .f32⟩ : BufTy).Contents (Elt F)),
    binary main_arg1 main_v10 main_v11 (mulf : (⟨S8x10, .f32⟩ : BufTy).Contents (Elt F) → (⟨S8x10, .f32⟩ : BufTy).Contents (Elt F) → (⟨S8x10, .f32⟩ : BufTy).Contents (Elt F)),
    nullary main_cst_3 (constant S_ .f32 0x00000000#32),
    binary main_v11 main_cst_3 main_v12 ((fun x v => Host.reduceAdd x v reducesTo_S8x10_S8_d1 h_S_) : (⟨S8x10, .f32⟩ : BufTy).Contents (Elt F) → (⟨S_, .f32⟩ : BufTy).Contents (Elt F) → (⟨S8, .f32⟩ : BufTy).Contents (Elt F)),
    nullary main_cst_4 (constant S_ .f32 0x41200000#32),
    unary main_cst_4 main_v13 (broadcastInDim S8 ![] bcast_S_S8 : (⟨S_, .f32⟩ : BufTy).Contents (Elt F) → (⟨S8, .f32⟩ : BufTy).Contents (Elt F)),
    binary main_v12 main_v13 main_v14 (Host.divf : (⟨S8, .f32⟩ : BufTy).Contents (Elt F) → (⟨S8, .f32⟩ : BufTy).Contents (Elt F) → (⟨S8, .f32⟩ : BufTy).Contents (Elt F)),
    nullary main_cst_5 (constant S_ .f32 0x00000000#32),
    binary main_v14 main_cst_5 main_v15 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_6 (constant S_ .f32 0x41000000#32),
    binary main_v15 main_cst_6 main_v16 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub ..⟩

/-- On every device, from any memory with zero counters: every weakly fair execution of @main terminates with the
    result buffer at the loss of the grouped mean of the first argument and the second argument, the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
          = loss reducesTo_S8x10_S8_d1 h_S_ bcast_S_S8 reducesTo_S8_S_d0 (avg (m ((c.tc : Thread nD τ).loc main_arg0)) table) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (by
        after_results_simp
        rw [← refAvg_eq]
        rfl),
      (h c main_arg0).trans (by after_results_simp),
      (h c main_arg1).trans (by after_results_simp)⟩)
    (run_seq scopedRefs_eq scopedSems_eq defs main (fun _ => ops) main_eq (fun _ => ops_sub) m ρ)

end Run

end Cert.GroupedMean.Ref
end
-- ==== Proof.lean ====
/-
  The kernel and its reference compute one function of the inputs x : [8, 262144, 23] and the targets t : [8, 10]:
  the loss of the grouped mean.

  A row's share of group g is the sum of its entries in the columns of g over the sum of all its entries.  The kernel
  walks the rows in 64 tiles of 4096, adds each tile's shares onto an 8 x 10 block that starts at zero, and divides by
  262144.0 after the last tile; the reference sums the shares of all 262144 rows at once and divides by 262144.0.
  Addition of extended reals is commutative and associative, so the 64 partial sums added in order are the one sum
  (the running block after tile n is the sum over the first (n + 1) * 4096 rows).  The reference takes a row's total
  as the sum over the groups of the grouped sums; each column lies in exactly one group, and x * 1 = x, x * 0 = 0 on
  every extended real, so that is the plain sum of the row.  Both then apply the same thirteen operations (the loss)
  to the mean and the targets.  Nothing here needs the inputs to be finite.
-/
import proofs.«111948_j21131239096802_2_alg».proof.Defs
import proofs.«111948_j21131239096802_2_alg».proof.Proof.Gen.Kernel
import proofs.«111948_j21131239096802_2_alg».proof.Proof.Gen.Kernel.Frame
import proofs.«111948_j21131239096802_2_alg».proof.Proof.Gen.KernelIdeal
import proofs.«111948_j21131239096802_2_alg».proof.Proof.Gen.KernelIdeal.Frame
import proofs.«111948_j21131239096802_2_alg».proof.Proof.Gen.ReferenceIdeal
import proofs.«111948_j21131239096802_2_alg».proof.Proof.Gen.Pre_finite_inputs
import proofs.«111948_j21131239096802_2_alg».proof.Proof.KernelRun
import proofs.«111948_j21131239096802_2_alg».proof.Proof.KernelValue
import proofs.«111948_j21131239096802_2_alg».proof.Proof.RefValue
import Idealize.ShloMosaic.Adequacy
import Idealize.ShloMosaic.Init

noncomputable section

namespace Cert.Proof

open Idealize.ShloMosaic Idealize.ShloMosaic.TcCoe Idealize.SL.Sem Cert.GroupedMean

/-- The two programs carry the same 23 x 10 table. -/
theorem table_eq : Ker.table = Ref.table := by
  have h : ∀ k : Fin 230, Cert.KernelIdeal.lit0 k = Cert.ReferenceIdeal.lit0 k := by decide
  funext i
  exact congrArg (Ideal.ofBits .f32) (h _)

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Ref.run m ρ)

theorem preserves : Cert.preserves_Kernel_KernelIdeal := trivial

/-- Both programs end at the loss of the grouped mean of x (at the shared table) and the targets. -/
theorem algebraic : Cert.algebraic_KernelIdeal_ReferenceIdeal := by
  intro m ρ m' ρ' _ hagree
  refine ⟨fun c => loss Cert.KernelIdeal.Gen.reducesTo_S8x10_S8_d1 Cert.KernelIdeal.Gen.h_S_ Cert.KernelIdeal.Gen.bcast_S_S8
      Cert.KernelIdeal.Gen.reducesTo_S8_S_d0
      (avg (m ((c.tc : Thread Cert.KernelIdeal.nD Cert.KernelIdeal.τ).loc Cert.KernelIdeal.main_arg0)) Ker.table)
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Ker.run m ρ)
    rw [Ker.result_eq]
  · refine (θ_run Cert.ReferenceIdeal.defs _ _).mono (fun _ h c => ⟨(h c).1.trans ?_, (h c).2⟩) (Ref.run m' ρ')
    rw [(hagree c).1, (hagree c).2, ← table_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
